-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S5000x128 : Shape := ⟨2, ![5000, 128]⟩
abbrev S5000x1 : Shape := ⟨2, ![5000, 1]⟩
abbrev S1x128 : Shape := ⟨2, ![1, 128]⟩
abbrev S50000x64 : Shape := ⟨2, ![50000, 64]⟩
abbrev S2000x64 : Shape := ⟨2, ![2000, 64]⟩
abbrev S850000x64 : Shape := ⟨2, ![850000, 64]⟩
abbrev S5000x64 : Shape := ⟨2, ![5000, 64]⟩
abbrev S1x64 : Shape := ⟨2, ![1, 64]⟩

abbrev nBuf : Space → Nat
  | .hbm => 73
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S850000, .i32⟩
  | .hbm, ⟨22, _⟩ => ⟨S850000, .i1⟩
  | .hbm, ⟨23, _⟩ => ⟨S_, .i32⟩
  | .hbm, ⟨24, _⟩ => ⟨S850000, .i32⟩
  | .hbm, ⟨25, _⟩ => ⟨S850000, .i32⟩
  | .hbm, ⟨26, _⟩ => ⟨S850000, .i32⟩
  | .hbm, ⟨27, _⟩ => ⟨S850000x1, .i32⟩
  | .hbm, ⟨28, _⟩ => ⟨S850000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S850000x1, .f32⟩
  | .hbm, ⟨40, _⟩ => ⟨S50000x128, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000x128, .f32⟩
  | .hbm, ⟨50, _⟩ => ⟨S850000x128, .f32⟩
  | .hbm, ⟨51, _⟩ => ⟨S_, .f32⟩
  | .hbm, ⟨52, _⟩ => ⟨S50000x128, .f32⟩
  | .hbm, ⟨53, _⟩ => ⟨S850000x1, .i32⟩
  | .hbm, ⟨54, _⟩ => ⟨S50000x128, .f32⟩
  | .hbm, ⟨55, _⟩ => ⟨S1x128, .f32⟩
  | .hbm, ⟨56, _⟩ => ⟨S50000x64, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x64, .f32⟩
  | .hbm, ⟨66, _⟩ => ⟨S850000x64, .f32⟩
  | .hbm, ⟨67, _⟩ => ⟨S_, .f32⟩
  | .hbm, ⟨68, _⟩ => ⟨S50000x64, .f32⟩
  | .hbm, ⟨69, _⟩ => ⟨S850000x1, .i32⟩
  | .hbm, ⟨70, _⟩ => ⟨S50000x64, .f32⟩
  | .hbm, ⟨71, _⟩ => ⟨S1x64, .f32⟩
  | .hbm, ⟨72, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S5000x128, .f32⟩
  | .local _ .vmem, ⟨6, _⟩ => ⟨S5000x128, .f32⟩
  | .local _ .vmem, ⟨7, _⟩ => ⟨S5000x1, .f32⟩
  | .local _ .vmem, ⟨8, _⟩ => ⟨S5000x1, .f32⟩
  | .local _ .vmem, ⟨9, _⟩ => ⟨S5000x128, .f32⟩
  | .local _ .vmem, ⟨10, _⟩ => ⟨S5000x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S128x64, .f32⟩
  | .local _ .vmem, ⟨15, _⟩ => ⟨S2000x64, .f32⟩
  | .local _ .vmem, ⟨16, _⟩ => ⟨S2000x64, .f32⟩
  | .local _ .vmem, ⟨17, _⟩ => ⟨S5000x64, .f32⟩
  | .local _ .vmem, ⟨18, _⟩ => ⟨S5000x64, .f32⟩
  | .local _ .vmem, ⟨19, _⟩ => ⟨S5000x1, .f32⟩
  | .local _ .vmem, ⟨20, _⟩ => ⟨S5000x1, .f32⟩
  | .local _ .vmem, ⟨21, _⟩ => ⟨S5000x64, .f32⟩
  | .local _ .vmem, ⟨22, _⟩ => ⟨S5000x64, .f32⟩
  | .local _ .vmem, ⟨23, _⟩ => ⟨S2000x64, .f32⟩
  | .local _ .vmem, ⟨24, _⟩ => ⟨S2000x64, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_7 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![170], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S850000x128.size a
  hwx1_0 : ∀ i : grid1.Coords, EltTy.bits .f32 = 32 ∨ (Rect.block (s := S850000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S850000x1.size a
  hwx1_1 : ∀ i : grid1.Coords, EltTy.bits .f32 = 32 ∨ (Rect.block (s := S850000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S850000x128.size a
  hwx1_2 : ∀ i : grid1.Coords, EltTy.bits .f32 = 32 ∨ (Rect.block (s := S850000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S850000x64.size a
  hwx3_0 : ∀ i : grid3.Coords, EltTy.bits .f32 = 32 ∨ (Rect.block (s := S850000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S850000x1.size a
  hwx3_1 : ∀ i : grid3.Coords, EltTy.bits .f32 = 32 ∨ (Rect.block (s := S850000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S850000x64.size a
  hwx3_2 : ∀ i : grid3.Coords, EltTy.bits .f32 = 32 ∨ (Rect.block (s := S850000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S50000x64.size a
  hwx4_2 : ∀ i : grid4.Coords, EltTy.bits .f32 = 32 ∨ (Rect.block (s := S50000x64) S2000x64.size (cc4_transform_2 i) (hinb4_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v35) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v39) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v48) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v49) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v52) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v54) S2000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 82
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S850000, .i32⟩
  | .hbm, ⟨22, _⟩ => ⟨S850000, .i1⟩
  | .hbm, ⟨23, _⟩ => ⟨S_, .i32⟩
  | .hbm, ⟨24, _⟩ => ⟨S850000, .i32⟩
  | .hbm, ⟨25, _⟩ => ⟨S850000, .i32⟩
  | .hbm, ⟨26, _⟩ => ⟨S850000, .i32⟩
  | .hbm, ⟨27, _⟩ => ⟨S850000x1, .i32⟩
  | .hbm, ⟨28, _⟩ => ⟨S850000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S50000x128, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x128, .f32⟩
  | .hbm, ⟨49, _⟩ => ⟨S850000x1, .f32⟩
  | .hbm, ⟨50, _⟩ => ⟨S850000x128, .f32⟩
  | .hbm, ⟨51, _⟩ => ⟨S850000x128, .f32⟩
  | .hbm, ⟨52, _⟩ => ⟨S_, .f32⟩
  | .hbm, ⟨53, _⟩ => ⟨S50000x128, .f32⟩
  | .hbm, ⟨54, _⟩ => ⟨S850000x1, .i32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S50000x128, .f32⟩
  | .hbm, ⟨62, _⟩ => ⟨S50000x64, .f32⟩
  | .hbm, ⟨63, _⟩ => ⟨S_, .i32⟩
  | .hbm, ⟨64, _⟩ => ⟨S850000, .i32⟩
  | .hbm, ⟨65, _⟩ => ⟨S850000, .i1⟩
  | .hbm, ⟨66, _⟩ => ⟨S_, .i32⟩
  | .hbm, ⟨67, _⟩ => ⟨S850000, .i32⟩
  | .hbm, ⟨68, _⟩ => ⟨S850000, .i32⟩
  | .hbm, ⟨69, _⟩ => ⟨S850000, .i32⟩
  | .hbm, ⟨70, _⟩ => ⟨S850000x1, .i32⟩
  | .hbm, ⟨71, _⟩ => ⟨S850000x64, .f32⟩
  | .hbm, ⟨72, _⟩ => ⟨S850000x1, .f32⟩
  | .hbm, ⟨73, _⟩ => ⟨S850000x64, .f32⟩
  | .hbm, ⟨74, _⟩ => ⟨S850000x64, .f32⟩
  | .hbm, ⟨75, _⟩ => ⟨S_, .f32⟩
  | .hbm, ⟨76, _⟩ => ⟨S50000x64, .f32⟩
  | .hbm, ⟨77, _⟩ => ⟨S850000x1, .i32⟩
  | .hbm, ⟨78, _⟩ => ⟨S50000x64, .f32⟩
  | .hbm, ⟨79, _⟩ => ⟨S1x64, .f32⟩
  | .hbm, ⟨80, _⟩ => ⟨S50000x64, .f32⟩
  | .hbm, ⟨81, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.LibHostRows.lean ====
/-
  Host-side layout operations on matrices, read at an index, over arbitrary sizes.

  * a column `[m, 1]` laid across `n` columns by `broadcast_in_dim` along both axes: entry `(p, q)` is the column's
    entry `p`;
  * a vector `[n]` made a single row `[1, n]`, either by `broadcast_in_dim` along axis 1 or by a reshape: entry
    `(0, q)` is the vector's entry `q` — so the two single rows are the same array;
  * a vector `[m]` made a column `[m, 1]` by `broadcast_in_dim` along axis 0: entry `(p, 0)` is the vector's entry `p`.
-/
import Idealize.ShloMosaic.Lib.Pipeline.Value
import Idealize.ShloMosaic.Lib.ValueIdx

namespace Cert.Lib.HostRows

open Idealize.ShloMosaic Idealize.ShloMosaic.ValueIdx

variable {α : Type} {m n : Nat}

/-- A column laid across `n` columns: entry `(p, q)` is the column's entry `p`. -/
theorem colAcross_apply (hb : (⟨2, ![m, 1]⟩ : Shape).BroadcastsInDim ⟨2, ![m, n]⟩ ![0, 1])
    (y : (⟨2, ![m, 1]⟩ : Shape).Idx → α) (p : Fin m) (q : Fin n) :
    broadcastInDim ⟨2, ![m, n]⟩ ![0, 1] hb y (ix2 p q) = y (ix2 p (0 : Fin 1)) := by
  refine broadcastInDim_apply ![0, 1] hb y (ix2 p q) (ix2 p (0 : Fin 1)) ?_
  intro a
  match a with
  | ⟨0, _⟩ =>
    show p.val = if m = 1 then 0 else p.val
    split
    · have := p.isLt; omega
    · rfl
  | ⟨1, _⟩ =>
    show (0 : ℕ) = if (1 : ℕ) = 1 then 0 else q.val
    rw [if_pos rfl]

/-- A vector made a single row by `broadcast_in_dim` along axis 1: entry `(0, q)` is the vector's entry `q`. -/
theorem rowOfVec_apply (hb : (⟨1, ![n]⟩ : Shape).BroadcastsInDim ⟨2, ![1, n]⟩ ![1])
    (x : (⟨1, ![n]⟩ : Shape).Idx → α) (q : Fin n) :
    broadcastInDim ⟨2, ![1, n]⟩ ![1] hb x (ix2 (0 : Fin 1) q) = x (ix1 q) := by
  refine broadcastInDim_apply ![1] hb x (ix2 (0 : Fin 1) q) (ix1 q) ?_
  intro a
  match a with
  | ⟨0, _⟩ =>
    show q.val = if n = 1 then 0 else q.val
    split
    · have := q.isLt; omega
    · rfl

/-- A vector reshaped to a single row: entry `(0, q)` is the vector's entry `q`. -/
theorem rowCast_apply (h1 : (⟨1, ![n]⟩ : Shape).ShapeCasts ⟨2, ![1, n]⟩)
    (x : (⟨1, ![n]⟩ : Shape).Idx → α) (q : Fin n) :
    shapeCast ⟨2, ![1, n]⟩ x h1 (ix2 (0 : Fin 1) q) = x (ix1 q) :=
  shapeCast_apply x h1 (ix2 (0 : Fin 1) q) (ix1 q) (by
    rw [Shape.rowMajor_val_two, Shape.rowMajor_val_one]; show q.val = 0 * n + q.val; omega)

/-- The reshape of a vector to a single row and its `broadcast_in_dim` along axis 1 are the same array. -/
theorem rowCast_eq_rowOfVec (h1 : (⟨1, ![n]⟩ : Shape).ShapeCasts ⟨2, ![1, n]⟩)
    (hb : (⟨1, ![n]⟩ : Shape).BroadcastsInDim ⟨2, ![1, n]⟩ ![1]) (x : (⟨1, ![n]⟩ : Shape).Idx → α) :
    shapeCast ⟨2, ![1, n]⟩ x h1 = broadcastInDim ⟨2, ![1, n]⟩ ![1] hb x := by
  funext j
  obtain ⟨r, q, rfl⟩ : ∃ (r : Fin 1) (q : Fin n), j = ix2 r q := ⟨j 0, j 1, eq_ix2 j⟩
  obtain rfl : r = 0 := Subsingleton.elim _ _
  rw [rowCast_apply, rowOfVec_apply]

/-- A vector made a column by `broadcast_in_dim` along axis 0: entry `(p, 0)` is the vector's entry `p`. -/
theorem colOfVec_apply (hb : (⟨1, ![m]⟩ : Shape).BroadcastsInDim ⟨2, ![m, 1]⟩ ![0])
    (x : (⟨1, ![m]⟩ : Shape).Idx → α) (p : Fin m) :
    broadcastInDim ⟨2, ![m, 1]⟩ ![0] hb x (ix2 p (0 : Fin 1)) = x (ix1 p) := by
  refine broadcastInDim_apply ![0] hb x (ix2 p (0 : Fin 1)) (ix1 p) ?_
  intro a
  match a with
  | ⟨0, _⟩ =>
    show p.val = if m = 1 then 0 else p.val
    split
    · have := p.isLt; omega
    · rfl

end Cert.Lib.HostRows
-- ==== Proof.Stages.lean ====
/-
  The five dense stages of the two-layer graph convolution as whole-array functions, each read at an index.

  Between the gathers and scatter-adds (which both programs apply in the same way) the network computes, on whole arrays:
  the projection `X·W₁`; the scaling of each gathered row `e` by its edge's coefficient, `g(e, q) · n(e)`; the second
  projection of the rectified, biased aggregate, `max(a + b₁, 0)·W₂`; the same scaling on 64 columns; and the last bias,
  `a + b₂`. They are written here with the host's operations (a product, a column laid across the columns, a row laid down
  the rows), and each is read at an entry `(r, q)` as plain arithmetic of the operands' entries.
-/
import proofs.«124881_j429496729879_1_alg».proof.Proof.Gen.ReferenceIdeal
import proofs.«124881_j429496729879_1_alg».proof.Proof.LibPlainProduct
import proofs.«124881_j429496729879_1_alg».proof.Proof.LibHostRows
import Idealize.ShloMosaic.Lib.KernelVsHost
import Idealize.ShloMosaic.PureOps.Ideal.Laws

noncomputable section

namespace Cert.Stages

open Cert.ReferenceIdeal Cert.ReferenceIdeal.Facts₀ Idealize.ShloMosaic Idealize.ShloMosaic.ValueIdx

/-- The first projection `X·W₁`. -/
def project128 (x : FVec Ideal S50000x128 .f32) (w : FVec Ideal S128x128 .f32) : FVec Ideal S50000x128 .f32 :=
  Host.dotGeneral dot_S50000x128_S128x128_S50000x128_1_0_0_1_n_n none x w

/-- Entry `(r, q)` of `X·W₁` is `∑ k, X(r, k) · W₁(k, q)`. -/
theorem project128_apply (x : FVec Ideal S50000x128 .f32) (w : FVec Ideal S128x128 .f32) (r : Fin 50000) (q : Fin 128) :
    project128 x w (ix2 r q) = ∑ k : Fin 128, x (ix2 r k) * w (ix2 k q) :=
  Cert.PlainProduct.dotGeneral_plain_apply' dot_S50000x128_S128x128_S50000x128_1_0_0_1_n_n rfl none x w r q

/-- Each gathered row scaled by its edge's coefficient (128 columns). -/
def scale128 (g : FVec Ideal S850000x128 .f32) (n : FVec Ideal S850000x1 .f32) : FVec Ideal S850000x128 .f32 :=
  mulf g (broadcastInDim S850000x128 ![0, 1] bcast_S850000x1_S850000x128_0_1 n)

/-- Entry `(e, q)` of the scaled messages is `g(e, q) · n(e)`. -/
theorem scale128_apply (g : FVec Ideal S850000x128 .f32) (n : FVec Ideal S850000x1 .f32) (e : Fin 850000) (q : Fin 128) :
    scale128 g n (ix2 e q) = g (ix2 e q) * n (ix2 e (0 : Fin 1)) := by
  unfold scale128
  rw [mulf_apply, Cert.Lib.HostRows.colAcross_apply]

/-- The second projection of the rectified, biased aggregate: `max(a + b₁, 0)·W₂`, with `b₁` as a single row. -/
def hidden64 (a : FVec Ideal S50000x128 .f32) (b : FVec Ideal S1x128 .f32) (w : FVec Ideal S128x64 .f32) :
    FVec Ideal S50000x64 .f32 :=
  Host.dotGeneral dot_S50000x128_S128x64_S50000x64_1_0_0_1_n_n none
    (maximumf (addf a (broadcastInDim S50000x128 ![0, 1] bcast_S1x128_S50000x128_0_1 b))
      (broadcastInDim S50000x128 ![] bcast_S_S50000x128 (constant (F := Ideal) S_ .f32 0x00000000#32))) w

/-- Entry `(r, q)` of the second projection is `∑ k, max(a(r, k) + b₁(k), 0) · W₂(k, q)`. -/
theorem hidden64_apply (a : FVec Ideal S50000x128 .f32) (b : FVec Ideal S1x128 .f32) (w : FVec Ideal S128x64 .f32)
    (r : Fin 50000) (q : Fin 64) :
    hidden64 a b w (ix2 r q)
      = ∑ k : Fin 128, max (a (ix2 r k) + b (ix2 (0 : Fin 1) k)) (Ideal.ofBits .f32 0x00000000#32) * w (ix2 k q) := by
  unfold hidden64
  refine (Cert.PlainProduct.dotGeneral_plain_apply' dot_S50000x128_S128x64_S50000x64_1_0_0_1_n_n rfl none _ w r q).trans ?_
  refine Finset.sum_congr rfl fun k _ => ?_
  rw [maximumf_apply, addf_apply, broadcastInDim_oneRow_apply]
  rfl

/-- Each gathered row scaled by its edge's coefficient (64 columns). -/
def scale64 (g : FVec Ideal S850000x64 .f32) (n : FVec Ideal S850000x1 .f32) : FVec Ideal S850000x64 .f32 :=
  mulf g (broadcastInDim S850000x64 ![0, 1] bcast_S850000x1_S850000x64_0_1 n)

/-- Entry `(e, q)` of the scaled messages is `g(e, q) · n(e)`. -/
theorem scale64_apply (g : FVec Ideal S850000x64 .f32) (n : FVec Ideal S850000x1 .f32) (e : Fin 850000) (q : Fin 64) :
    scale64 g n (ix2 e q) = g (ix2 e q) * n (ix2 e (0 : Fin 1)) := by
  unfold scale64
  rw [mulf_apply, Cert.Lib.HostRows.colAcross_apply]

/-- The last bias: `a + b₂`, with `b₂` as a single row. -/
def bias64 (a : FVec Ideal S50000x64 .f32) (b : FVec Ideal S1x64 .f32) : FVec Ideal S50000x64 .f32 :=
  addf a (broadcastInDim S50000x64 ![0, 1] bcast_S1x64_S50000x64_0_1 b)

/-- Entry `(r, q)` of the output is `a(r, q) + b₂(q)`. -/
theorem bias64_apply (a : FVec Ideal S50000x64 .f32) (b : FVec Ideal S1x64 .f32) (r : Fin 50000) (q : Fin 64) :
    bias64 a b (ix2 r q) = a (ix2 r q) + b (ix2 (0 : Fin 1) q) := by
  unfold bias64
  rw [addf_apply, broadcastInDim_oneRow_apply]

end Cert.Stages

end
-- ==== Proof.HostStretches.lean ====
/-
  The host operations between the kernel's five passes, read over arbitrary buffer contents.

  Before the first pass the program derives from the edge list the source and destination index vectors (the edges
  followed by one self-loop per node) and the edges' coefficients `deg^(-1/2)[src] · deg^(-1/2)[dst]`; between the
  passes it gathers rows by source, scatter-adds rows by destination, and reshapes a bias vector to a single row. The
  reference performs the same operations on the same operands, so each result is stated as the reference's stage of
  that name, given that the stretch's inputs are the reference's stages; every other buffer is left as it was.
-/
import proofs.«124881_j429496729879_1_alg».proof.Proof.Gen.KernelIdeal.Launch
import proofs.«124881_j429496729879_1_alg».proof.Proof.Gen.ReferenceIdeal.Read
import proofs.«124881_j429496729879_1_alg».proof.Proof.LibHostRows
import Idealize.ShloMosaic.Lib.StableHlo.Run

set_option maxRecDepth 16384

noncomputable section

namespace Cert.KernelIdeal.Stretch

open Cert.KernelIdeal Cert.KernelIdeal.Gen Idealize.ShloMosaic Idealize.ShloMosaic.TcCoe Idealize.SL.Sem
open Idealize.ShloMosaic.StableHlo
open Cert.ReferenceIdeal.Read

/-- A buffer that no operation of the stretch writes keeps its contents. -/
macro "untouched " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (W : Valuation τ sig (Elt Ideal))

/-! ## Before the first pass: the index vectors and the coefficients -/

/-- The source indices: the edges' first row followed by every node's own index. -/
theorem sources (e : IVec S2x800000 32) (h : W (Proc.devRef .tc main_arg1) = e) :
    after hostOps0 W (Proc.devRef .tc main_v3) = val_main_v3 (F := Ideal) e := by
  subst h
  dsimp only [hostOps0]
  after_results_simp
  rfl

/-- The destination indices: the edges' second row followed by every node's own index. -/
theorem targets (e : IVec S2x800000 32) (h : W (Proc.devRef .tc main_arg1) = e) :
    after hostOps0 W (Proc.devRef .tc main_v6) = val_main_v6 (F := Ideal) e := by
  subst h
  dsimp only [hostOps0]
  after_results_simp
  rfl

/-- The edges' coefficients, as a column. -/
theorem coefficients (e : IVec S2x800000 32) (h : W (Proc.devRef .tc main_arg1) = e) :
    after hostOps0 W (Proc.devRef .tc main_v27) = val_main_v35 (F := Ideal) e := by
  subst h
  dsimp only [hostOps0]
  after_results_simp
  rfl

/-! ## Between the passes: gathers by source, scatter-adds by destination, the bias rows -/

/-- The rows of the first projection gathered by source index. -/
theorem gathered128 (x : FVec Ideal S50000x128 .f32) (e : IVec S2x800000 32) (w : FVec Ideal S128x128 .f32)
    (h3 : W (Proc.devRef .tc main_v3) = val_main_v3 (F := Ideal) e)
    (h28 : W (Proc.devRef .tc main_v28) = val_main_v27 (F := Ideal) x w) :
    after hostOps1 W (Proc.devRef .tc main_v35) = val_main_v34 (F := Ideal) x e w := by
  dsimp only [hostOps1]
  after_results_simp
  rw [h3, h28]
  rfl

/-- The scaled messages of the first layer added up by destination index. -/
theorem aggregated128 (x : FVec Ideal S50000x128 .f32) (e : IVec S2x800000 32) (w : FVec Ideal S128x128 .f32)
    (h6 : W (Proc.devRef .tc main_v6) = val_main_v6 (F := Ideal) e)
    (h36 : W (Proc.devRef .tc main_v36) = val_main_v37 (F := Ideal) x e w) :
    after hostOps2 W (Proc.devRef .tc main_v39) = val_main_v40 (F := Ideal) x e w := by
  dsimp only [hostOps2]
  after_results_simp
  rw [h6, h36]
  rfl

/-- The first bias as a single row: the kernel's reshape is the reference's broadcast along axis 1. -/
theorem biasRow128 (b : FVec Ideal S128 .f32) (h : W (Proc.devRef .tc main_arg3) = b) :
    after hostOps2 W (Proc.devRef .tc main_v40) = val_main_v41 (F := Ideal) b := by
  dsimp only [hostOps2]
  after_results_simp
  rw [h]
  exact Cert.Lib.HostRows.rowCast_eq_rowOfVec _ _ b

/-- The rows of the second projection gathered by source index. -/
theorem gathered64 (x : FVec Ideal S50000x128 .f32) (e : IVec S2x800000 32) (w : FVec Ideal S128x128 .f32)
    (b : FVec Ideal S128 .f32) (w' : FVec Ideal S128x64 .f32)
    (h3 : W (Proc.devRef .tc main_v3) = val_main_v3 (F := Ideal) e)
    (h41 : W (Proc.devRef .tc main_v41) = val_main_v45 (F := Ideal) x e w b w') :
    after hostOps3 W (Proc.devRef .tc main_v48) = val_main_v52 (F := Ideal) x e w b w' := by
  dsimp only [hostOps3]
  after_results_simp
  rw [h3, h41]
  rfl

/-- The scaled messages of the second layer added up by destination index. -/
theorem aggregated64 (x : FVec Ideal S50000x128 .f32) (e : IVec S2x800000 32) (w : FVec Ideal S128x128 .f32)
    (b : FVec Ideal S128 .f32) (w' : FVec Ideal S128x64 .f32)
    (h6 : W (Proc.devRef .tc main_v6) = val_main_v6 (F := Ideal) e)
    (h49 : W (Proc.devRef .tc main_v49) = val_main_v55 (F := Ideal) x e w b w') :
    after hostOps4 W (Proc.devRef .tc main_v52) = val_main_v58 (F := Ideal) x e w b w' := by
  dsimp only [hostOps4]
  after_results_simp
  rw [h6, h49]
  rfl

/-- The second bias as a single row: the kernel's reshape is the reference's broadcast along axis 1. -/
theorem biasRow64 (b : FVec Ideal S64 .f32) (h : W (Proc.devRef .tc main_arg5) = b) :
    after hostOps4 W (Proc.devRef .tc main_v53) = val_main_v59 (F := Ideal) b := by
  dsimp only [hostOps4]
  after_results_simp
  rw [h]
  exact Cert.Lib.HostRows.rowCast_eq_rowOfVec _ _ b

/-! ## What each stretch leaves alone -/

theorem keep0_arg0 : after hostOps0 W (Proc.devRef .tc main_arg0) = W (Proc.devRef .tc main_arg0) := by untouched hostOps0
theorem keep0_arg2 : after hostOps0 W (Proc.devRef .tc main_arg2) = W (Proc.devRef .tc main_arg2) := by untouched hostOps0
theorem keep0_arg3 : after hostOps0 W (Proc.devRef .tc main_arg3) = W (Proc.devRef .tc main_arg3) := by untouched hostOps0
theorem keep0_arg4 : after hostOps0 W (Proc.devRef .tc main_arg4) = W (Proc.devRef .tc main_arg4) := by untouched hostOps0
theorem keep0_arg5 : after hostOps0 W (Proc.devRef .tc main_arg5) = W (Proc.devRef .tc main_arg5) := by untouched hostOps0
theorem keep1_v3 : after hostOps1 W (Proc.devRef .tc main_v3) = W (Proc.devRef .tc main_v3) := by untouched hostOps1
theorem keep1_v6 : after hostOps1 W (Proc.devRef .tc main_v6) = W (Proc.devRef .tc main_v6) := by untouched hostOps1
theorem keep1_v27 : after hostOps1 W (Proc.devRef .tc main_v27) = W (Proc.devRef .tc main_v27) := by untouched hostOps1
theorem keep1_arg3 : after hostOps1 W (Proc.devRef .tc main_arg3) = W (Proc.devRef .tc main_arg3) := by untouched hostOps1
theorem keep1_arg4 : after hostOps1 W (Proc.devRef .tc main_arg4) = W (Proc.devRef .tc main_arg4) := by untouched hostOps1
theorem keep1_arg5 : after hostOps1 W (Proc.devRef .tc main_arg5) = W (Proc.devRef .tc main_arg5) := by untouched hostOps1
theorem keep2_v3 : after hostOps2 W (Proc.devRef .tc main_v3) = W (Proc.devRef .tc main_v3) := by untouched hostOps2
theorem keep2_v6 : after hostOps2 W (Proc.devRef .tc main_v6) = W (Proc.devRef .tc main_v6) := by untouched hostOps2
theorem keep2_v27 : after hostOps2 W (Proc.devRef .tc main_v27) = W (Proc.devRef .tc main_v27) := by untouched hostOps2
theorem keep2_arg4 : after hostOps2 W (Proc.devRef .tc main_arg4) = W (Proc.devRef .tc main_arg4) := by untouched hostOps2
theorem keep2_arg5 : after hostOps2 W (Proc.devRef .tc main_arg5) = W (Proc.devRef .tc main_arg5) := by untouched hostOps2
theorem keep3_v6 : after hostOps3 W (Proc.devRef .tc main_v6) = W (Proc.devRef .tc main_v6) := by untouched hostOps3
theorem keep3_v27 : after hostOps3 W (Proc.devRef .tc main_v27) = W (Proc.devRef .tc main_v27) := by untouched hostOps3
theorem keep3_arg5 : after hostOps3 W (Proc.devRef .tc main_arg5) = W (Proc.devRef .tc main_arg5) := by untouched hostOps3

end Cert.KernelIdeal.Stretch

end
-- ==== Proof.Project128.lean ====
/-
  The first projection `X·W₁`, computed block of rows by block of rows, read as a whole array.

  The pass runs over 25 blocks of 2000 nodes. At block `t` its body multiplies rows `2000 t … 2000 t + 1999` of `X` by the
  whole of `W₁` (a product into a zero accumulator: at the extended reals the textbook contraction, the roundings of the
  operands to bf16 being the identity there) and writes the block back to the same rows of the output. The blocks tile the
  50000 rows, so after the pass the output is `X·W₁` of the arrays the pass found.
-/
import proofs.«124881_j429496729879_1_alg».proof.Proof.Gen.KernelIdeal.Frame
import proofs.«124881_j429496729879_1_alg».proof.Proof.Stages
import proofs.«124881_j429496729879_1_alg».proof.Proof.LibPlainProduct
import Idealize.ShloMosaic.Lib.Pipeline.Value

noncomputable section

namespace Cert.KernelIdeal.Project128

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product at entry `(p, q)` of a block: the contraction of row `p` of the block with column `q` of `W₁`. -/
theorem pay_apply (x0 : Vec Ideal S2000x128 .f32) (x1 : Vec Ideal S128x128 .f32) (p : Fin 2000) (q : Fin 128) :
    k0_pay1 x0 x1 (ix2 p q) = ∑ k : Fin 128, x0 (ix2 p k) * x1 (ix2 k q) := by
  unfold k0_pay1
  exact Cert.PlainProduct.matmul_plain_apply dot_S2000x128_S128x128_S2000x128_1_0_0_1_n_n rfl none
    (truncf .bf16 x0 Facts₀.bitsLt_bf16_f32) (truncf .bf16 x1 Facts₀.bitsLt_bf16_f32) p q

/-- At grid point `t` the blocks of `X` and of the output are block `t` along the rows; `W₁` is one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(p, k)` of the block of `X` at point `t` is entry `(2000 t + p, k)` of `X`. -/
theorem rows_apply (c : Dev nD) (t : Fin cfg0.N) (p : Fin 2000) (q : Fin 128) (r : Fin 50000)
    (hr : r.val = 2000 * t.val + p.val) :
    (iblk0 V c 0 t : Vec Ideal S2000x128 .f32) (ix2 p q) = (V c main_arg0 : S50000x128.Idx → Ideal .f32) (ix2 r q) := by
  have e0 := (idx_facts t).1
  have e1 := (idx_facts t).2.1
  unfold iblk0
  rw [View.read_apply]
  show V c main_arg0 _ = V c main_arg0 _
  refine congrArg _ (funext fun a => Fin.ext ?_)
  match a with
  | ⟨0, _⟩ => show win0_0.index t (0 : Fin 2) * 2000 + 1 * p.val = r.val; rw [e0, hr]; omega
  | ⟨1, _⟩ => show win0_0.index t (1 : Fin 2) * 128 + 1 * q.val = q.val; rw [e1]; omega

/-- The block of `W₁` at every point is `W₁` itself. -/
theorem weight_apply (c : Dev nD) (t : Fin cfg0.N) (k : Fin 128) (q : Fin 128) :
    (iblk0 V c 1 t : Vec Ideal S128x128 .f32) (ix2 k q) = (V c main_arg2 : S128x128.Idx → Ideal .f32) (ix2 k q) := by
  have e0 := (idx_facts t).2.2.1
  have e1 := (idx_facts t).2.2.2.1
  unfold iblk0
  rw [View.read_apply]
  show V c main_arg2 _ = V c main_arg2 _
  refine congrArg _ (funext fun a => Fin.ext ?_)
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- What point `t` writes back is block `t` of `X·W₁`. -/
theorem flushed_eq (c : Dev nD) (t : Fin cfg0.N) :
    (dat0 V c).flushed 2 t
      = ((cfg0.win 2).blk t).view.read (Elt Ideal) (Cert.Stages.project128 (V c main_arg0) (V c main_arg2)) := by
  have ht : t.val < 25 := Nat.lt_of_lt_of_eq t.isLt N_0
  have e0 := (idx_facts t).2.2.2.2.1
  have e1 := (idx_facts t).2.2.2.2.2
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  funext j
  obtain ⟨p, q, rfl⟩ : ∃ (p : Fin 2000) (q : Fin 128), j = ix2 p q := ⟨j 0, j 1, eq_ix2 j⟩
  have hp : p.val < 2000 := p.isLt
  let r : Fin 50000 := ⟨2000 * t.val + p.val, by omega⟩
  have hemb : ((cfg0.win 2).blk t).view.emb (ix2 p q) = (ix2 r q : S50000x128.Idx) := by
    funext a; apply Fin.ext
    match a with
    | ⟨0, _⟩ => show win0_2.index t (0 : Fin 2) * 2000 + 1 * p.val = 2000 * t.val + p.val; rw [e0]; omega
    | ⟨1, _⟩ => show win0_2.index t (1 : Fin 2) * 128 + 1 * q.val = q.val; rw [e1]; omega
  show k0_pay1 (iblk0 V c 0 t) (iblk0 V c 1 t) (ix2 p q)
    = Cert.Stages.project128 (V c main_arg0) (V c main_arg2) (((cfg0.win 2).blk t).view.emb (ix2 p q))
  rw [hemb, Cert.Stages.project128_apply, pay_apply]
  refine Finset.sum_congr rfl fun k _ => ?_
  rw [rows_apply V c t p k r rfl, weight_apply V c t k q]

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v28).slice (win0_2.rect t)).set ↔ _
  rw [View.set_slice_whole, Rect.mem_set_unit]
  exact Iff.rfl

/-- Every entry `(r, q)` of the array is in the block of point `r / 2000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  have e0 := (idx_facts t).2.2.2.2.1
  have e1 := (idx_facts t).2.2.2.2.2
  have ht : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; rw [e0, ht]; omega
  | ⟨1, _⟩ => show win0_2.index t (1 : Fin 2) * 128 ≤ (i 1).val ∧ (i 1).val < win0_2.index t (1 : Fin 2) * 128 + 128; rw [e1]; omega

/-- After the region the output array holds `X·W₁` of the arrays the region found. -/
theorem final (c : Dev nD) :
    (dat0 V c).arrAt 2 cfg0.N = Cert.Stages.project128 (V c main_arg0) (V c main_arg2) :=
  (dat0 V c).arrAt_eq_of_cover 2 (Cert.Stages.project128 (V c main_arg0) (V c main_arg2)) (fun t _ => flushed_eq V c t) cover

end Cert.KernelIdeal.Project128

end
-- ==== Proof.LibRepeat.lean ====
/-
  A single row repeated down the rows of a matrix, and a single column repeated across its columns, read at an index.

  Broadcasting a `[1, n]` array to `[m, n]` gives, at `(p, q)`, the entry `(0, q)` of the operand; broadcasting an
  `[m, 1]` array to `[m, n]` gives the entry `(p, 0)`.
-/
import Idealize.ShloMosaic.Lib.Pipeline.Value
import Idealize.ShloMosaic.Lib.ValueIdx

namespace Cert.Lib.Repeat

open Idealize.ShloMosaic Idealize.ShloMosaic.ValueIdx

variable {α : Type} {m n : Nat}

/-- One row repeated down `m` rows: entry `(p, q)` is the row's entry `q`. -/
theorem rowRepeat_apply (x : (⟨2, ![1, n]⟩ : Shape).Idx → α) (hb : (⟨2, ![1, n]⟩ : Shape).Broadcasts ⟨2, ![m, n]⟩)
    (p : Fin m) (q : Fin n) : broadcastTo ⟨2, ![m, n]⟩ x hb (ix2 p q) = x (ix2 (0 : Fin 1) q) :=
  broadcastTo_apply x hb (ix2 p q) (ix2 (0 : Fin 1) q) (by
    intro a
    match a with
    | ⟨0, _⟩ => rfl
    | ⟨1, _⟩ =>
      show q.val = if n = 1 then 0 else q.val
      split
      · have := q.isLt; omega
      · rfl)

/-- One column repeated across `n` columns: entry `(p, q)` is the column's entry `p`. -/
theorem colRepeat_apply (x : (⟨2, ![m, 1]⟩ : Shape).Idx → α) (hb : (⟨2, ![m, 1]⟩ : Shape).Broadcasts ⟨2, ![m, n]⟩)
    (p : Fin m) (q : Fin n) : broadcastTo ⟨2, ![m, n]⟩ x hb (ix2 p q) = x (ix2 p (0 : Fin 1)) :=
  broadcastTo_apply x hb (ix2 p q) (ix2 p (0 : Fin 1)) (by
    intro a
    match a with
    | ⟨0, _⟩ =>
      show p.val = if m = 1 then 0 else p.val
      split
      · have := p.isLt; omega
      · rfl
    | ⟨1, _⟩ => rfl)

end Cert.Lib.Repeat
-- ==== Proof.Scale128.lean ====
/-
  The first scaling pass read as a whole array.

  The pass runs over 170 blocks of 5000 edges. At block `t` its body multiplies each gathered row `5000 t + p` by the
  coefficient of that edge, and writes the block back to rows `5000 t … 5000 t + 4999` of the output. The blocks tile the
  850000 rows, so after the pass the output is the scaled messages `g(e, q) · n(e)` of the arrays the pass found.
-/
import proofs.«124881_j429496729879_1_alg».proof.Proof.Gen.KernelIdeal.Frame
import proofs.«124881_j429496729879_1_alg».proof.Proof.Stages
import proofs.«124881_j429496729879_1_alg».proof.Proof.LibRepeat
import Idealize.ShloMosaic.Lib.Pipeline.Value

noncomputable section

namespace Cert.KernelIdeal.Scale128

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product at entry `(p, q)` of a block: the gathered entry times the coefficient of its row. -/
theorem pay_apply (x0 : Vec Ideal S5000x128 .f32) (x1 : Vec Ideal S5000x1 .f32) (p : Fin 5000) (q : Fin 128) :
    k1_pay1 x0 x1 (ix2 p q) = x0 (ix2 p q) * x1 (ix2 p (0 : Fin 1)) := by
  unfold k1_pay1
  simp only [shapeCast_self]
  rw [mulf_apply, Cert.Lib.Repeat.colRepeat_apply]

/-- At grid point `t` every window's block is block `t` along the rows and the only block along the columns. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Entry `(p, q)` of the gathered rows' block at point `t` is entry `(5000 t + p, q)` of the array. -/
theorem rows_apply (c : Dev nD) (t : Fin cfg1.N) (p : Fin 5000) (q : Fin 128) (r : Fin 850000)
    (hr : r.val = 5000 * t.val + p.val) :
    (iblk1 V c 0 t : Vec Ideal S5000x128 .f32) (ix2 p q) = (V c main_v35 : S850000x128.Idx → Ideal .f32) (ix2 r q) := by
  obtain ⟨e0, e1, -, -, -, -⟩ := idx_facts t
  unfold iblk1
  rw [View.read_apply]
  show V c main_v35 _ = V c main_v35 _
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * q.val = q.val; rw [e1]; omega

/-- Entry `(p, 0)` of the coefficients' block at point `t` is entry `(5000 t + p, 0)` of the column. -/
theorem coef_apply (c : Dev nD) (t : Fin cfg1.N) (p : Fin 5000) (r : Fin 850000)
    (hr : r.val = 5000 * t.val + p.val) :
    (iblk1 V c 1 t : Vec Ideal S5000x1 .f32) (ix2 p (0 : Fin 1)) = (V c main_v27 : S850000x1.Idx → Ideal .f32) (ix2 r (0 : Fin 1)) := by
  obtain ⟨-, -, e0, e1, -, -⟩ := idx_facts t
  unfold iblk1
  rw [View.read_apply]
  show V c main_v27 _ = V c main_v27 _
  refine congrArg _ (funext fun a => Fin.ext ?_)
  match a with
  | ⟨0, _⟩ => show win1_1.index t (0 : Fin 2) * 5000 + 1 * p.val = r.val; rw [e0, hr]; omega
  | ⟨1, _⟩ => show win1_1.index t (1 : Fin 2) * 1 + 1 * 0 = 0; rw [e1]

/-- What point `t` writes back is block `t` of the scaled messages. -/
theorem flushed_eq (c : Dev nD) (t : Fin cfg1.N) :
    (dat1 V c).flushed 2 t
      = ((cfg1.win 2).blk t).view.read (Elt Ideal) (Cert.Stages.scale128 (V c main_v35) (V c main_v27)) := by
  have ht : t.val < 170 := Nat.lt_of_lt_of_eq t.isLt N_1
  obtain ⟨-, -, -, -, e0, e1⟩ := idx_facts t
  show (cfg1.win 2).cut (grid1.coords t) ((dat1 V c).after 2 t) = _
  rw [after1_2]
  unfold out1_2
  rw [View.canon_unit_zero hz]
  simp only [View.ld_unit_zero (S := S5000x128) hz, View.ld_unit_zero (S := S5000x1) hz]
  funext j
  obtain ⟨p, q, rfl⟩ : ∃ (p : Fin 5000) (q : Fin 128), j = ix2 p q := ⟨j 0, j 1, eq_ix2 j⟩
  have hp : p.val < 5000 := p.isLt
  let r : Fin 850000 := ⟨5000 * t.val + p.val, by omega⟩
  have hemb : ((cfg1.win 2).blk t).view.emb (ix2 p q) = (ix2 r q : S850000x128.Idx) := by
    funext a; apply Fin.ext
    match a with
    | ⟨0, _⟩ => show win1_2.index t (0 : Fin 2) * 5000 + 1 * p.val = 5000 * t.val + p.val; rw [e0]; omega
    | ⟨1, _⟩ => show win1_2.index t (1 : Fin 2) * 128 + 1 * q.val = q.val; rw [e1]; omega
  show k1_pay1 (iblk1 V c 0 t) (iblk1 V c 1 t) (ix2 p q)
    = Cert.Stages.scale128 (V c main_v35) (V c main_v27) (((cfg1.win 2).blk t).view.emb (ix2 p q))
  rw [hemb, Cert.Stages.scale128_apply, pay_apply, rows_apply V c t p q r rfl, coef_apply V c t p r rfl]

/-- An index of the array is in point `t`'s block iff each coordinate is in the block's range on its axis. -/
theorem mem_blk (t : Fin cfg1.N) (i : S850000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v36).slice (win1_2.rect t)).set ↔ _
  rw [View.set_slice_whole, Rect.mem_set_unit]
  exact Iff.rfl

/-- Every entry `(r, q)` of the array is in the block of point `r / 5000`. -/
theorem cover (i : S850000x128.Idx) : ∃ t : Fin cfg1.N, (cfg1.win 2).flush t = true ∧ i ∈ ((cfg1.win 2).blk t).view.set := by
  have hi0 : (i 0).val < 850000 := (i 0).isLt
  have hi1 : (i 1).val < 128 := (i 1).isLt
  have hN : cfg1.N = 170 := N_1
  let t : Fin cfg1.N := ⟨(i 0).val / 5000, by rw [hN]; omega⟩
  obtain ⟨-, -, -, -, e0, e1⟩ := idx_facts t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; rw [e0, ht]; omega
  | ⟨1, _⟩ => show win1_2.index t (1 : Fin 2) * 128 ≤ (i 1).val ∧ (i 1).val < win1_2.index t (1 : Fin 2) * 128 + 128; rw [e1]; omega

/-- After the region the output array holds the scaled messages of the arrays the region found. -/
theorem final (c : Dev nD) :
    (dat1 V c).arrAt 2 cfg1.N = Cert.Stages.scale128 (V c main_v35) (V c main_v27) :=
  (dat1 V c).arrAt_eq_of_cover 2 (Cert.Stages.scale128 (V c main_v35) (V c main_v27)) (fun t _ => flushed_eq V c t) cover

end Cert.KernelIdeal.Scale128

end
-- ==== Proof.Hidden64.lean ====
/-
  The second projection `max(a + b₁, 0)·W₂`, computed block of rows by block of rows, read as a whole array.

  The pass runs over 25 blocks of 2000 nodes. At block `t` its body adds the single row `b₁` to rows
  `2000 t … 2000 t + 1999` of the aggregate, takes the maximum with zero, multiplies by the whole of `W₂` (a product into a
  zero accumulator: at the extended reals the textbook contraction) and writes the block back to the same rows of the
  output. The blocks tile the 50000 rows, so after the pass the output is `max(a + b₁, 0)·W₂` of the arrays the pass found.
-/
import proofs.«124881_j429496729879_1_alg».proof.Proof.Gen.KernelIdeal.Frame
import proofs.«124881_j429496729879_1_alg».proof.Proof.Stages
import proofs.«124881_j429496729879_1_alg».proof.Proof.LibPlainProduct
import proofs.«124881_j429496729879_1_alg».proof.Proof.LibRepeat
import Idealize.ShloMosaic.Lib.Pipeline.Value

noncomputable section

namespace Cert.KernelIdeal.Hidden64

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product at entry `(p, q)` of a block: the rectified, biased row `p` contracted with column `q` of `W₂`. -/
theorem pay_apply (x0 : Vec Ideal S2000x128 .f32) (x1 : Vec Ideal S1x128 .f32) (x2 : Vec Ideal S128x64 .f32)
    (p : Fin 2000) (q : Fin 64) :
    k2_pay1 x0 x1 x2 (ix2 p q)
      = ∑ k : Fin 128, max (x0 (ix2 p k) + x1 (ix2 (0 : Fin 1) k)) (Ideal.ofBits .f32 0x00000000#32) * x2 (ix2 k q) := by
  unfold k2_pay1
  simp only [shapeCast_self]
  refine (Cert.PlainProduct.matmul_plain_apply dot_S2000x128_S128x64_S2000x64_1_0_0_1_n_n rfl none _ _ p q).trans ?_
  refine Finset.sum_congr rfl fun k _ => ?_
  rw [truncf_apply, truncf_apply, maximumf_apply, addf_apply, Cert.Lib.Repeat.rowRepeat_apply]
  rfl

/-- At grid point `t` the aggregate's and the output's blocks are block `t` along the rows; `b₁` and `W₂` are one block each. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry `(p, k)` of the aggregate's block at point `t` is entry `(2000 t + p, k)` of the array. -/
theorem rows_apply (c : Dev nD) (t : Fin cfg2.N) (p : Fin 2000) (q : Fin 128) (r : Fin 50000)
    (hr : r.val = 2000 * t.val + p.val) :
    (iblk2 V c 0 t : Vec Ideal S2000x128 .f32) (ix2 p q) = (V c main_v39 : S50000x128.Idx → Ideal .f32) (ix2 r q) := by
  have e0 := (idx_facts t).1
  have e1 := (idx_facts t).2.1
  unfold iblk2
  rw [View.read_apply]
  show V c main_v39 _ = V c main_v39 _
  refine congrArg _ (funext fun a => Fin.ext ?_)
  match a with
  | ⟨0, _⟩ => show win2_0.index t (0 : Fin 2) * 2000 + 1 * p.val = r.val; rw [e0, hr]; omega
  | ⟨1, _⟩ => show win2_0.index t (1 : Fin 2) * 128 + 1 * q.val = q.val; rw [e1]; omega

/-- The bias row's block at every point is the row itself. -/
theorem bias_apply (c : Dev nD) (t : Fin cfg2.N) (k : Fin 1) (q : Fin 128) :
    (iblk2 V c 1 t : Vec Ideal S1x128 .f32) (ix2 k q) = (V c main_v40 : S1x128.Idx → Ideal .f32) (ix2 k q) := by
  have e0 := (idx_facts t).2.2.1
  have e1 := (idx_facts t).2.2.2.1
  unfold iblk2
  rw [View.read_apply]
  show V c main_v40 _ = V c main_v40 _
  refine congrArg _ (funext fun a => Fin.ext ?_)
  match a with
  | ⟨0, _⟩ => show win2_1.index t (0 : Fin 2) * 1 + 1 * k.val = k.val; rw [e0]; omega
  | ⟨1, _⟩ => show win2_1.index t (1 : Fin 2) * 128 + 1 * q.val = q.val; rw [e1]; omega

/-- The block of `W₂` at every point is `W₂` itself. -/
theorem weight_apply (c : Dev nD) (t : Fin cfg2.N) (k : Fin 128) (q : Fin 64) :
    (iblk2 V c 2 t : Vec Ideal S128x64 .f32) (ix2 k q) = (V c main_arg4 : S128x64.Idx → Ideal .f32) (ix2 k q) := by
  have e0 := (idx_facts t).2.2.2.2.1
  have e1 := (idx_facts t).2.2.2.2.2.1
  unfold iblk2
  rw [View.read_apply]
  show V c main_arg4 _ = V c main_arg4 _
  refine congrArg _ (funext fun a => Fin.ext ?_)
  match a with
  | ⟨0, _⟩ => show win2_2.index t (0 : Fin 2) * 128 + 1 * k.val = k.val; rw [e0]; omega
  | ⟨1, _⟩ => show win2_2.index t (1 : Fin 2) * 64 + 1 * q.val = q.val; rw [e1]; omega

/-- What point `t` writes back is block `t` of `max(a + b₁, 0)·W₂`. -/
theorem flushed_eq (c : Dev nD) (t : Fin cfg2.N) :
    (dat2 V c).flushed 3 t
      = ((cfg2.win 3).blk t).view.read (Elt Ideal) (Cert.Stages.hidden64 (V c main_v39) (V c main_v40) (V c main_arg4)) := by
  have ht : t.val < 25 := Nat.lt_of_lt_of_eq t.isLt N_2
  have e0 := (idx_facts t).2.2.2.2.2.2.1
  have e1 := (idx_facts t).2.2.2.2.2.2.2
  show (cfg2.win 3).cut (grid2.coords t) ((dat2 V c).after 3 t) = _
  rw [after2_3]
  unfold out2_3
  rw [View.canon_unit_zero hz]
  simp only [View.ld_unit_zero (S := S2000x128) hz, View.ld_unit_zero (S := S1x128) hz, View.ld_unit_zero (S := S128x64) hz]
  funext j
  obtain ⟨p, q, rfl⟩ : ∃ (p : Fin 2000) (q : Fin 64), j = ix2 p q := ⟨j 0, j 1, eq_ix2 j⟩
  have hp : p.val < 2000 := p.isLt
  let r : Fin 50000 := ⟨2000 * t.val + p.val, by omega⟩
  have hemb : ((cfg2.win 3).blk t).view.emb (ix2 p q) = (ix2 r q : S50000x64.Idx) := by
    funext a; apply Fin.ext
    match a with
    | ⟨0, _⟩ => show win2_3.index t (0 : Fin 2) * 2000 + 1 * p.val = 2000 * t.val + p.val; rw [e0]; omega
    | ⟨1, _⟩ => show win2_3.index t (1 : Fin 2) * 64 + 1 * q.val = q.val; rw [e1]; omega
  show k2_pay1 (iblk2 V c 0 t) (iblk2 V c 1 t) (iblk2 V c 2 t) (ix2 p q)
    = Cert.Stages.hidden64 (V c main_v39) (V c main_v40) (V c main_arg4) (((cfg2.win 3).blk t).view.emb (ix2 p q))
  rw [hemb, Cert.Stages.hidden64_apply, pay_apply]
  refine Finset.sum_congr rfl fun k _ => ?_
  rw [rows_apply V c t p k r rfl, bias_apply V c t (0 : Fin 1) k, weight_apply V c t k q]

/-- An index of the array is in point `t`'s block iff each coordinate is in the block's range on its axis. -/
theorem mem_blk (t : Fin cfg2.N) (i : S50000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v41).slice (win2_3.rect t)).set ↔ _
  rw [View.set_slice_whole, Rect.mem_set_unit]
  exact Iff.rfl

/-- Every entry `(r, q)` of the array is in the block of point `r / 2000`. -/
theorem cover (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 25 := N_2
  let t : Fin cfg2.N := ⟨(i 0).val / 2000, by rw [hN]; omega⟩
  have e0 := (idx_facts t).2.2.2.2.2.2.1
  have e1 := (idx_facts t).2.2.2.2.2.2.2
  have ht : t.val = (i 0).val / 2000 := rfl
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; rw [e0, ht]; omega
  | ⟨1, _⟩ => show win2_3.index t (1 : Fin 2) * 64 ≤ (i 1).val ∧ (i 1).val < win2_3.index t (1 : Fin 2) * 64 + 64; rw [e1]; omega

/-- After the region the output array holds `max(a + b₁, 0)·W₂` of the arrays the region found. -/
theorem final (c : Dev nD) :
    (dat2 V c).arrAt 3 cfg2.N = Cert.Stages.hidden64 (V c main_v39) (V c main_v40) (V c main_arg4) :=
  (dat2 V c).arrAt_eq_of_cover 3 (Cert.Stages.hidden64 (V c main_v39) (V c main_v40) (V c main_arg4)) (fun t _ => flushed_eq V c t) cover

end Cert.KernelIdeal.Hidden64

end
-- ==== Proof.Scale64.lean ====
/-
  The second scaling pass read as a whole array.

  The pass runs over 170 blocks of 5000 edges. At block `t` its body multiplies each gathered row `5000 t + p` (64 columns)
  by the coefficient of that edge, and writes the block back to rows `5000 t … 5000 t + 4999` of the output. The blocks tile
  the 850000 rows, so after the pass the output is the scaled messages `g(e, q) · n(e)` of the arrays the pass found.
-/
import proofs.«124881_j429496729879_1_alg».proof.Proof.Gen.KernelIdeal.Frame
import proofs.«124881_j429496729879_1_alg».proof.Proof.Stages
import proofs.«124881_j429496729879_1_alg».proof.Proof.LibRepeat
import Idealize.ShloMosaic.Lib.Pipeline.Value

noncomputable section

namespace Cert.KernelIdeal.Scale64

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product at entry `(p, q)` of a block: the gathered entry times the coefficient of its row. -/
theorem pay_apply (x0 : Vec Ideal S5000x64 .f32) (x1 : Vec Ideal S5000x1 .f32) (p : Fin 5000) (q : Fin 64) :
    k3_pay1 x0 x1 (ix2 p q) = x0 (ix2 p q) * x1 (ix2 p (0 : Fin 1)) := by
  unfold k3_pay1
  simp only [shapeCast_self]
  rw [mulf_apply, Cert.Lib.Repeat.colRepeat_apply]

/-- At grid point `t` every window's block is block `t` along the rows and the only block along the columns. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- Entry `(p, q)` of the gathered rows' block at point `t` is entry `(5000 t + p, q)` of the array. -/
theorem rows_apply (c : Dev nD) (t : Fin cfg3.N) (p : Fin 5000) (q : Fin 64) (r : Fin 850000)
    (hr : r.val = 5000 * t.val + p.val) :
    (iblk3 V c 0 t : Vec Ideal S5000x64 .f32) (ix2 p q) = (V c main_v48 : S850000x64.Idx → Ideal .f32) (ix2 r q) := by
  obtain ⟨e0, e1, -, -, -, -⟩ := idx_facts t
  unfold iblk3
  rw [View.read_apply]
  show V c main_v48 _ = V c main_v48 _
  refine congrArg _ (funext fun a => Fin.ext ?_)
  match a with
  | ⟨0, _⟩ => show win3_0.index t (0 : Fin 2) * 5000 + 1 * p.val = r.val; rw [e0, hr]; omega
  | ⟨1, _⟩ => show win3_0.index t (1 : Fin 2) * 64 + 1 * q.val = q.val; rw [e1]; omega

/-- Entry `(p, 0)` of the coefficients' block at point `t` is entry `(5000 t + p, 0)` of the column. -/
theorem coef_apply (c : Dev nD) (t : Fin cfg3.N) (p : Fin 5000) (r : Fin 850000)
    (hr : r.val = 5000 * t.val + p.val) :
    (iblk3 V c 1 t : Vec Ideal S5000x1 .f32) (ix2 p (0 : Fin 1)) = (V c main_v27 : S850000x1.Idx → Ideal .f32) (ix2 r (0 : Fin 1)) := by
  obtain ⟨-, -, e0, e1, -, -⟩ := idx_facts t
  unfold iblk3
  rw [View.read_apply]
  show V c main_v27 _ = V c main_v27 _
  refine congrArg _ (funext fun a => Fin.ext ?_)
  match a with
  | ⟨0, _⟩ => show win3_1.index t (0 : Fin 2) * 5000 + 1 * p.val = r.val; rw [e0, hr]; omega
  | ⟨1, _⟩ => show win3_1.index t (1 : Fin 2) * 1 + 1 * 0 = 0; rw [e1]

/-- What point `t` writes back is block `t` of the scaled messages. -/
theorem flushed_eq (c : Dev nD) (t : Fin cfg3.N) :
    (dat3 V c).flushed 2 t
      = ((cfg3.win 2).blk t).view.read (Elt Ideal) (Cert.Stages.scale64 (V c main_v48) (V c main_v27)) := by
  have ht : t.val < 170 := Nat.lt_of_lt_of_eq t.isLt N_3
  obtain ⟨-, -, -, -, e0, e1⟩ := idx_facts t
  show (cfg3.win 2).cut (grid3.coords t) ((dat3 V c).after 2 t) = _
  rw [after3_2]
  unfold out3_2
  rw [View.canon_unit_zero hz]
  simp only [View.ld_unit_zero (S := S5000x64) hz, View.ld_unit_zero (S := S5000x1) hz]
  funext j
  obtain ⟨p, q, rfl⟩ : ∃ (p : Fin 5000) (q : Fin 64), j = ix2 p q := ⟨j 0, j 1, eq_ix2 j⟩
  have hp : p.val < 5000 := p.isLt
  let r : Fin 850000 := ⟨5000 * t.val + p.val, by omega⟩
  have hemb : ((cfg3.win 2).blk t).view.emb (ix2 p q) = (ix2 r q : S850000x64.Idx) := by
    funext a; apply Fin.ext
    match a with
    | ⟨0, _⟩ => show win3_2.index t (0 : Fin 2) * 5000 + 1 * p.val = 5000 * t.val + p.val; rw [e0]; omega
    | ⟨1, _⟩ => show win3_2.index t (1 : Fin 2) * 64 + 1 * q.val = q.val; rw [e1]; omega
  show k3_pay1 (iblk3 V c 0 t) (iblk3 V c 1 t) (ix2 p q)
    = Cert.Stages.scale64 (V c main_v48) (V c main_v27) (((cfg3.win 2).blk t).view.emb (ix2 p q))
  rw [hemb, Cert.Stages.scale64_apply, pay_apply, rows_apply V c t p q r rfl, coef_apply V c t p r rfl]

/-- An index of the array is in point `t`'s block iff each coordinate is in the block's range on its axis. -/
theorem mem_blk (t : Fin cfg3.N) (i : S850000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v49).slice (win3_2.rect t)).set ↔ _
  rw [View.set_slice_whole, Rect.mem_set_unit]
  exact Iff.rfl

/-- Every entry `(r, q)` of the array is in the block of point `r / 5000`. -/
theorem cover (i : S850000x64.Idx) : ∃ t : Fin cfg3.N, (cfg3.win 2).flush t = true ∧ i ∈ ((cfg3.win 2).blk t).view.set := by
  have hi0 : (i 0).val < 850000 := (i 0).isLt
  have hi1 : (i 1).val < 64 := (i 1).isLt
  have hN : cfg3.N = 170 := N_3
  let t : Fin cfg3.N := ⟨(i 0).val / 5000, by rw [hN]; omega⟩
  obtain ⟨-, -, -, -, e0, e1⟩ := idx_facts t
  have ht : t.val = (i 0).val / 5000 := rfl
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; rw [e0, ht]; omega
  | ⟨1, _⟩ => show win3_2.index t (1 : Fin 2) * 64 ≤ (i 1).val ∧ (i 1).val < win3_2.index t (1 : Fin 2) * 64 + 64; rw [e1]; omega

/-- After the region the output array holds the scaled messages of the arrays the region found. -/
theorem final (c : Dev nD) :
    (dat3 V c).arrAt 2 cfg3.N = Cert.Stages.scale64 (V c main_v48) (V c main_v27) :=
  (dat3 V c).arrAt_eq_of_cover 2 (Cert.Stages.scale64 (V c main_v48) (V c main_v27)) (fun t _ => flushed_eq V c t) cover

end Cert.KernelIdeal.Scale64

end
-- ==== Proof.Bias64.lean ====
/-
  The last pass, the bias added to the second aggregate, read as a whole array.

  The pass runs over 25 blocks of 2000 nodes. At block `t` its body adds the single row `b₂` to each of the rows
  `2000 t … 2000 t + 1999` of the aggregate and writes the block back to the same rows of the output. The blocks tile the
  50000 rows, so after the pass the output is `a(r, q) + b₂(q)` of the arrays the pass found.
-/
import proofs.«124881_j429496729879_1_alg».proof.Proof.Gen.KernelIdeal.Frame
import proofs.«124881_j429496729879_1_alg».proof.Proof.Stages
import proofs.«124881_j429496729879_1_alg».proof.Proof.LibRepeat
import Idealize.ShloMosaic.Lib.Pipeline.Value

noncomputable section

namespace Cert.KernelIdeal.Bias64

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's sum at entry `(p, q)` of a block: the aggregate's entry plus the bias of its column. -/
theorem pay_apply (x0 : Vec Ideal S2000x64 .f32) (x1 : Vec Ideal S1x64 .f32) (p : Fin 2000) (q : Fin 64) :
    k4_pay1 x0 x1 (ix2 p q) = x0 (ix2 p q) + x1 (ix2 (0 : Fin 1) q) := by
  unfold k4_pay1
  simp only [shapeCast_self]
  rw [addf_apply, Cert.Lib.Repeat.rowRepeat_apply]

/-- At grid point `t` the aggregate's and the output's blocks are block `t` along the rows; the bias row is one block. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Entry `(p, q)` of the aggregate's block at point `t` is entry `(2000 t + p, q)` of the array. -/
theorem rows_apply (c : Dev nD) (t : Fin cfg4.N) (p : Fin 2000) (q : Fin 64) (r : Fin 50000)
    (hr : r.val = 2000 * t.val + p.val) :
    (iblk4 V c 0 t : Vec Ideal S2000x64 .f32) (ix2 p q) = (V c main_v52 : S50000x64.Idx → Ideal .f32) (ix2 r q) := by
  have e0 := (idx_facts t).1
  have e1 := (idx_facts t).2.1
  unfold iblk4
  rw [View.read_apply]
  show V c main_v52 _ = V c main_v52 _
  refine congrArg _ (funext fun a => Fin.ext ?_)
  match a with
  | ⟨0, _⟩ => show win4_0.index t (0 : Fin 2) * 2000 + 1 * p.val = r.val; rw [e0, hr]; omega
  | ⟨1, _⟩ => show win4_0.index t (1 : Fin 2) * 64 + 1 * q.val = q.val; rw [e1]; omega

/-- The bias row's block at every point is the row itself. -/
theorem bias_apply (c : Dev nD) (t : Fin cfg4.N) (k : Fin 1) (q : Fin 64) :
    (iblk4 V c 1 t : Vec Ideal S1x64 .f32) (ix2 k q) = (V c main_v53 : S1x64.Idx → Ideal .f32) (ix2 k q) := by
  have e0 := (idx_facts t).2.2.1
  have e1 := (idx_facts t).2.2.2.1
  unfold iblk4
  rw [View.read_apply]
  show V c main_v53 _ = V c main_v53 _
  refine congrArg _ (funext fun a => Fin.ext ?_)
  match a with
  | ⟨0, _⟩ => show win4_1.index t (0 : Fin 2) * 1 + 1 * k.val = k.val; rw [e0]; omega
  | ⟨1, _⟩ => show win4_1.index t (1 : Fin 2) * 64 + 1 * q.val = q.val; rw [e1]; omega

/-- What point `t` writes back is block `t` of the biased aggregate. -/
theorem flushed_eq (c : Dev nD) (t : Fin cfg4.N) :
    (dat4 V c).flushed 2 t
      = ((cfg4.win 2).blk t).view.read (Elt Ideal) (Cert.Stages.bias64 (V c main_v52) (V c main_v53)) := by
  have ht : t.val < 25 := Nat.lt_of_lt_of_eq t.isLt N_4
  have e0 := (idx_facts t).2.2.2.2.1
  have e1 := (idx_facts t).2.2.2.2.2
  show (cfg4.win 2).cut (grid4.coords t) ((dat4 V c).after 2 t) = _
  rw [after4_2]
  unfold out4_2
  rw [View.canon_unit_zero hz]
  simp only [View.ld_unit_zero (S := S2000x64) hz, View.ld_unit_zero (S := S1x64) hz]
  funext j
  obtain ⟨p, q, rfl⟩ : ∃ (p : Fin 2000) (q : Fin 64), j = ix2 p q := ⟨j 0, j 1, eq_ix2 j⟩
  have hp : p.val < 2000 := p.isLt
  let r : Fin 50000 := ⟨2000 * t.val + p.val, by omega⟩
  have hemb : ((cfg4.win 2).blk t).view.emb (ix2 p q) = (ix2 r q : S50000x64.Idx) := by
    funext a; apply Fin.ext
    match a with
    | ⟨0, _⟩ => show win4_2.index t (0 : Fin 2) * 2000 + 1 * p.val = 2000 * t.val + p.val; rw [e0]; omega
    | ⟨1, _⟩ => show win4_2.index t (1 : Fin 2) * 64 + 1 * q.val = q.val; rw [e1]; omega
  show k4_pay1 (iblk4 V c 0 t) (iblk4 V c 1 t) (ix2 p q)
    = Cert.Stages.bias64 (V c main_v52) (V c main_v53) (((cfg4.win 2).blk t).view.emb (ix2 p q))
  rw [hemb, Cert.Stages.bias64_apply, pay_apply, rows_apply V c t p q r rfl, bias_apply V c t (0 : Fin 1) q]

/-- An index of the array is in point `t`'s block iff each coordinate is in the block's range on its axis. -/
theorem mem_blk (t : Fin cfg4.N) (i : S50000x64.Idx) :
    i ∈ ((cfg4.win 2).blk t).view.set ↔ ∀ a : Fin 2, win4_2.index t a * S2000x64.size a ≤ (i a).val ∧ (i a).val < win4_2.index t a * S2000x64.size a + S2000x64.size a := by
  show i ∈ ((View.whole main_v54).slice (win4_2.rect t)).set ↔ _
  rw [View.set_slice_whole, Rect.mem_set_unit]
  exact Iff.rfl

/-- Every entry `(r, q)` of the array is in the block of point `r / 2000`. -/
theorem cover (i : S50000x64.Idx) : ∃ t : Fin cfg4.N, (cfg4.win 2).flush t = true ∧ i ∈ ((cfg4.win 2).blk t).view.set := by
  have hi0 : (i 0).val < 50000 := (i 0).isLt
  have hi1 : (i 1).val < 64 := (i 1).isLt
  have hN : cfg4.N = 25 := N_4
  let t : Fin cfg4.N := ⟨(i 0).val / 2000, by rw [hN]; omega⟩
  have e0 := (idx_facts t).2.2.2.2.1
  have e1 := (idx_facts t).2.2.2.2.2
  have ht : t.val = (i 0).val / 2000 := rfl
  refine ⟨t, flush4_2 t, ?_⟩
  rw [mem_blk]
  intro a
  match a with
  | ⟨0, _⟩ => show win4_2.index t (0 : Fin 2) * 2000 ≤ (i 0).val ∧ (i 0).val < win4_2.index t (0 : Fin 2) * 2000 + 2000; rw [e0, ht]; omega
  | ⟨1, _⟩ => show win4_2.index t (1 : Fin 2) * 64 ≤ (i 1).val ∧ (i 1).val < win4_2.index t (1 : Fin 2) * 64 + 64; rw [e1]; omega

/-- After the region the output array holds the biased aggregate of the arrays the region found. -/
theorem final (c : Dev nD) :
    (dat4 V c).arrAt 2 cfg4.N = Cert.Stages.bias64 (V c main_v52) (V c main_v53) :=
  (dat4 V c).arrAt_eq_of_cover 2 (Cert.Stages.bias64 (V c main_v52) (V c main_v53)) (fun t _ => flushed_eq V c t) cover

end Cert.KernelIdeal.Bias64

end
-- ==== Proof.Flow.lean ====
/-
  The kernel's five passes and the host operations between them, followed from the launch to the result.

  At every boundary between a pass and a stretch of host operations the buffers that are still to be read hold the
  reference's stages of the argument arrays: the index vectors and the coefficients from the start; after the first pass
  the projection `X·W₁`; after the gather, the scaling pass and the scatter-add, the first layer's aggregate; after the
  fused pass `max(a + b₁, 0)·W₂`; after the second gather, scaling pass and scatter-add, the second aggregate; and after the
  last pass the result, which is the reference's.
-/
import proofs.«124881_j429496729879_1_alg».proof.Proof.Gen.KernelIdeal.Frame
import proofs.«124881_j429496729879_1_alg».proof.Proof.Gen.ReferenceIdeal.Read
import proofs.«124881_j429496729879_1_alg».proof.Proof.Stages
import proofs.«124881_j429496729879_1_alg».proof.Proof.HostStretches
import proofs.«124881_j429496729879_1_alg».proof.Proof.Project128
import proofs.«124881_j429496729879_1_alg».proof.Proof.Scale128
import proofs.«124881_j429496729879_1_alg».proof.Proof.Hidden64
import proofs.«124881_j429496729879_1_alg».proof.Proof.Scale64
import proofs.«124881_j429496729879_1_alg».proof.Proof.Bias64

set_option maxRecDepth 16384

noncomputable section

namespace Cert.KernelIdeal.Flow

open Cert.KernelIdeal Cert.KernelIdeal.Gen Idealize.ShloMosaic Idealize.ShloMosaic.TcCoe Idealize.SL.Sem
open Cert.ReferenceIdeal.Read

variable (m : (ℓ : Loc nD τ sig) → Buf (Elt Ideal) ℓ) (ρ : Dev nD → PrngReg) (c : Dev nD)

theorem congr₃ {α β γ δ : Type} (f : α → β → γ → δ) {a a' : α} {b b' : β} {d d' : γ} (h1 : a = a') (h2 : b = b') (h3 : d = d') :
    f a b d = f a' b' d' := by subst h1 h2 h3; rfl

/-! ## Entering the first pass -/

theorem at1_arg0 : W1 m ρ c (Proc.devRef .tc main_arg0) = m ((c : Thread nD τ).loc main_arg0) :=
  (Stretch.keep0_arg0 (W0 m ρ c)).trans rfl
theorem at1_arg2 : W1 m ρ c (Proc.devRef .tc main_arg2) = m ((c : Thread nD τ).loc main_arg2) :=
  (Stretch.keep0_arg2 (W0 m ρ c)).trans rfl
theorem at1_arg3 : W1 m ρ c (Proc.devRef .tc main_arg3) = m ((c : Thread nD τ).loc main_arg3) :=
  (Stretch.keep0_arg3 (W0 m ρ c)).trans rfl
theorem at1_arg4 : W1 m ρ c (Proc.devRef .tc main_arg4) = m ((c : Thread nD τ).loc main_arg4) :=
  (Stretch.keep0_arg4 (W0 m ρ c)).trans rfl
theorem at1_arg5 : W1 m ρ c (Proc.devRef .tc main_arg5) = m ((c : Thread nD τ).loc main_arg5) :=
  (Stretch.keep0_arg5 (W0 m ρ c)).trans rfl
theorem at1_v3 : W1 m ρ c (Proc.devRef .tc main_v3) = val_main_v3 (F := Ideal) (m ((c : Thread nD τ).loc main_arg1)) :=
  Stretch.sources (W0 m ρ c) _ rfl
theorem at1_v6 : W1 m ρ c (Proc.devRef .tc main_v6) = val_main_v6 (F := Ideal) (m ((c : Thread nD τ).loc main_arg1)) :=
  Stretch.targets (W0 m ρ c) _ rfl
theorem at1_v27 : W1 m ρ c (Proc.devRef .tc main_v27) = val_main_v35 (F := Ideal) (m ((c : Thread nD τ).loc main_arg1)) :=
  Stretch.coefficients (W0 m ρ c) _ rfl

/-! ## After the first pass: the projection -/

theorem at2_v28 : W2 m ρ c (Proc.devRef .tc main_v28) = val_main_v27 (F := Ideal) (m ((c : Thread nD τ).loc main_arg0)) (m ((c : Thread nD τ).loc main_arg2)) :=
  (W2_arr m ρ c 2).trans ((Project128.final (V1 m ρ) c).trans
    (congrArg₂ Cert.Stages.project128 (at1_arg0 m ρ c) (at1_arg2 m ρ c)))
theorem at2_v3 : W2 m ρ c (Proc.devRef .tc main_v3) = val_main_v3 (F := Ideal) (m ((c : Thread nD τ).loc main_arg1)) :=
  (W2_of_ne m ρ c main_v3 (by decide)).trans (at1_v3 m ρ c)
theorem at2_v6 : W2 m ρ c (Proc.devRef .tc main_v6) = val_main_v6 (F := Ideal) (m ((c : Thread nD τ).loc main_arg1)) :=
  (W2_of_ne m ρ c main_v6 (by decide)).trans (at1_v6 m ρ c)
theorem at2_v27 : W2 m ρ c (Proc.devRef .tc main_v27) = val_main_v35 (F := Ideal) (m ((c : Thread nD τ).loc main_arg1)) :=
  (W2_of_ne m ρ c main_v27 (by decide)).trans (at1_v27 m ρ c)
theorem at2_arg3 : W2 m ρ c (Proc.devRef .tc main_arg3) = m ((c : Thread nD τ).loc main_arg3) :=
  (W2_of_ne m ρ c main_arg3 (by decide)).trans (at1_arg3 m ρ c)
theorem at2_arg4 : W2 m ρ c (Proc.devRef .tc main_arg4) = m ((c : Thread nD τ).loc main_arg4) :=
  (W2_of_ne m ρ c main_arg4 (by decide)).trans (at1_arg4 m ρ c)
theorem at2_arg5 : W2 m ρ c (Proc.devRef .tc main_arg5) = m ((c : Thread nD τ).loc main_arg5) :=
  (W2_of_ne m ρ c main_arg5 (by decide)).trans (at1_arg5 m ρ c)

/-! ## Entering the first scaling pass: the gathered rows -/

theorem at3_v35 : W3 m ρ c (Proc.devRef .tc main_v35) = val_main_v34 (F := Ideal) (m ((c : Thread nD τ).loc main_arg0)) (m ((c : Thread nD τ).loc main_arg1)) (m ((c : Thread nD τ).loc main_arg2)) :=
  Stretch.gathered128 (W2 m ρ c) _ _ _ (at2_v3 m ρ c) (at2_v28 m ρ c)
theorem at3_v3 : W3 m ρ c (Proc.devRef .tc main_v3) = val_main_v3 (F := Ideal) (m ((c : Thread nD τ).loc main_arg1)) :=
  (Stretch.keep1_v3 (W2 m ρ c)).trans (at2_v3 m ρ c)
theorem at3_v6 : W3 m ρ c (Proc.devRef .tc main_v6) = val_main_v6 (F := Ideal) (m ((c : Thread nD τ).loc main_arg1)) :=
  (Stretch.keep1_v6 (W2 m ρ c)).trans (at2_v6 m ρ c)
theorem at3_v27 : W3 m ρ c (Proc.devRef .tc main_v27) = val_main_v35 (F := Ideal) (m ((c : Thread nD τ).loc main_arg1)) :=
  (Stretch.keep1_v27 (W2 m ρ c)).trans (at2_v27 m ρ c)
theorem at3_arg3 : W3 m ρ c (Proc.devRef .tc main_arg3) = m ((c : Thread nD τ).loc main_arg3) :=
  (Stretch.keep1_arg3 (W2 m ρ c)).trans (at2_arg3 m ρ c)
theorem at3_arg4 : W3 m ρ c (Proc.devRef .tc main_arg4) = m ((c : Thread nD τ).loc main_arg4) :=
  (Stretch.keep1_arg4 (W2 m ρ c)).trans (at2_arg4 m ρ c)
theorem at3_arg5 : W3 m ρ c (Proc.devRef .tc main_arg5) = m ((c : Thread nD τ).loc main_arg5) :=
  (Stretch.keep1_arg5 (W2 m ρ c)).trans (at2_arg5 m ρ c)

/-! ## After the first scaling pass: the messages -/

theorem at4_v36 : W4 m ρ c (Proc.devRef .tc main_v36) = val_main_v37 (F := Ideal) (m ((c : Thread nD τ).loc main_arg0)) (m ((c : Thread nD τ).loc main_arg1)) (m ((c : Thread nD τ).loc main_arg2)) :=
  (W4_arr m ρ c 2).trans ((Scale128.final (V3 m ρ) c).trans
    (congrArg₂ Cert.Stages.scale128 (at3_v35 m ρ c) (at3_v27 m ρ c)))
theorem at4_v3 : W4 m ρ c (Proc.devRef .tc main_v3) = val_main_v3 (F := Ideal) (m ((c : Thread nD τ).loc main_arg1)) :=
  (W4_of_ne m ρ c main_v3 (by decide)).trans (at3_v3 m ρ c)
theorem at4_v6 : W4 m ρ c (Proc.devRef .tc main_v6) = val_main_v6 (F := Ideal) (m ((c : Thread nD τ).loc main_arg1)) :=
  (W4_of_ne m ρ c main_v6 (by decide)).trans (at3_v6 m ρ c)
theorem at4_v27 : W4 m ρ c (Proc.devRef .tc main_v27) = val_main_v35 (F := Ideal) (m ((c : Thread nD τ).loc main_arg1)) :=
  (W4_arr m ρ c 1).trans ((((dat1 (V3 m ρ) c).arrAt_in 1 rfl _).trans (A_eq1 (V3 m ρ) c 1)).trans (at3_v27 m ρ c))
theorem at4_arg3 : W4 m ρ c (Proc.devRef .tc main_arg3) = m ((c : Thread nD τ).loc main_arg3) :=
  (W4_of_ne m ρ c main_arg3 (by decide)).trans (at3_arg3 m ρ c)
theorem at4_arg4 : W4 m ρ c (Proc.devRef .tc main_arg4) = m ((c : Thread nD τ).loc main_arg4) :=
  (W4_of_ne m ρ c main_arg4 (by decide)).trans (at3_arg4 m ρ c)
theorem at4_arg5 : W4 m ρ c (Proc.devRef .tc main_arg5) = m ((c : Thread nD τ).loc main_arg5) :=
  (W4_of_ne m ρ c main_arg5 (by decide)).trans (at3_arg5 m ρ c)

/-! ## Entering the fused pass: the first aggregate and the bias row -/

theorem at5_v39 : W5 m ρ c (Proc.devRef .tc main_v39) = val_main_v40 (F := Ideal) (m ((c : Thread nD τ).loc main_arg0)) (m ((c : Thread nD τ).loc main_arg1)) (m ((c : Thread nD τ).loc main_arg2)) :=
  Stretch.aggregated128 (W4 m ρ c) _ _ _ (at4_v6 m ρ c) (at4_v36 m ρ c)
theorem at5_v40 : W5 m ρ c (Proc.devRef .tc main_v40) = val_main_v41 (F := Ideal) (m ((c : Thread nD τ).loc main_arg3)) :=
  Stretch.biasRow128 (W4 m ρ c) _ (at4_arg3 m ρ c)
theorem at5_v3 : W5 m ρ c (Proc.devRef .tc main_v3) = val_main_v3 (F := Ideal) (m ((c : Thread nD τ).loc main_arg1)) :=
  (Stretch.keep2_v3 (W4 m ρ c)).trans (at4_v3 m ρ c)
theorem at5_v6 : W5 m ρ c (Proc.devRef .tc main_v6) = val_main_v6 (F := Ideal) (m ((c : Thread nD τ).loc main_arg1)) :=
  (Stretch.keep2_v6 (W4 m ρ c)).trans (at4_v6 m ρ c)
theorem at5_v27 : W5 m ρ c (Proc.devRef .tc main_v27) = val_main_v35 (F := Ideal) (m ((c : Thread nD τ).loc main_arg1)) :=
  (Stretch.keep2_v27 (W4 m ρ c)).trans (at4_v27 m ρ c)
theorem at5_arg4 : W5 m ρ c (Proc.devRef .tc main_arg4) = m ((c : Thread nD τ).loc main_arg4) :=
  (Stretch.keep2_arg4 (W4 m ρ c)).trans (at4_arg4 m ρ c)
theorem at5_arg5 : W5 m ρ c (Proc.devRef .tc main_arg5) = m ((c : Thread nD τ).loc main_arg5) :=
  (Stretch.keep2_arg5 (W4 m ρ c)).trans (at4_arg5 m ρ c)

/-! ## After the fused pass: the second projection -/

theorem at6_v41 : W6 m ρ c (Proc.devRef .tc main_v41) = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W6_arr m ρ c 3).trans ((Hidden64.final (V5 m ρ) c).trans
    (congr₃ Cert.Stages.hidden64 (at5_v39 m ρ c) (at5_v40 m ρ c) (at5_arg4 m ρ c)))
theorem at6_v3 : W6 m ρ c (Proc.devRef .tc main_v3) = val_main_v3 (F := Ideal) (m ((c : Thread nD τ).loc main_arg1)) :=
  (W6_of_ne m ρ c main_v3 (by decide)).trans (at5_v3 m ρ c)
theorem at6_v6 : W6 m ρ c (Proc.devRef .tc main_v6) = val_main_v6 (F := Ideal) (m ((c : Thread nD τ).loc main_arg1)) :=
  (W6_of_ne m ρ c main_v6 (by decide)).trans (at5_v6 m ρ c)
theorem at6_v27 : W6 m ρ c (Proc.devRef .tc main_v27) = val_main_v35 (F := Ideal) (m ((c : Thread nD τ).loc main_arg1)) :=
  (W6_of_ne m ρ c main_v27 (by decide)).trans (at5_v27 m ρ c)
theorem at6_arg5 : W6 m ρ c (Proc.devRef .tc main_arg5) = m ((c : Thread nD τ).loc main_arg5) :=
  (W6_of_ne m ρ c main_arg5 (by decide)).trans (at5_arg5 m ρ c)

/-! ## Entering the second scaling pass: the gathered rows -/

theorem at7_v48 : W7 m ρ c (Proc.devRef .tc main_v48) = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  Stretch.gathered64 (W6 m ρ c) _ _ _ _ _ (at6_v3 m ρ c) (at6_v41 m ρ c)
theorem at7_v6 : W7 m ρ c (Proc.devRef .tc main_v6) = val_main_v6 (F := Ideal) (m ((c : Thread nD τ).loc main_arg1)) :=
  (Stretch.keep3_v6 (W6 m ρ c)).trans (at6_v6 m ρ c)
theorem at7_v27 : W7 m ρ c (Proc.devRef .tc main_v27) = val_main_v35 (F := Ideal) (m ((c : Thread nD τ).loc main_arg1)) :=
  (Stretch.keep3_v27 (W6 m ρ c)).trans (at6_v27 m ρ c)
theorem at7_arg5 : W7 m ρ c (Proc.devRef .tc main_arg5) = m ((c : Thread nD τ).loc main_arg5) :=
  (Stretch.keep3_arg5 (W6 m ρ c)).trans (at6_arg5 m ρ c)

/-! ## After the second scaling pass: the messages -/

theorem at8_v49 : W8 m ρ c (Proc.devRef .tc main_v49) = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W8_arr m ρ c 2).trans ((Scale64.final (V7 m ρ) c).trans
    (congrArg₂ Cert.Stages.scale64 (at7_v48 m ρ c) (at7_v27 m ρ c)))
theorem at8_v6 : W8 m ρ c (Proc.devRef .tc main_v6) = val_main_v6 (F := Ideal) (m ((c : Thread nD τ).loc main_arg1)) :=
  (W8_of_ne m ρ c main_v6 (by decide)).trans (at7_v6 m ρ c)
theorem at8_arg5 : W8 m ρ c (Proc.devRef .tc main_arg5) = m ((c : Thread nD τ).loc main_arg5) :=
  (W8_of_ne m ρ c main_arg5 (by decide)).trans (at7_arg5 m ρ c)

/-! ## Entering the last pass: the second aggregate and the bias row -/

theorem at9_v52 : W9 m ρ c (Proc.devRef .tc main_v52) = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  Stretch.aggregated64 (W8 m ρ c) _ _ _ _ _ (at8_v6 m ρ c) (at8_v49 m ρ c)
theorem at9_v53 : W9 m ρ c (Proc.devRef .tc main_v53) = val_main_v59 (F := Ideal) (m ((c : Thread nD τ).loc main_arg5)) :=
  Stretch.biasRow64 (W8 m ρ c) _ (at8_arg5 m ρ c)

/-! ## After the last pass: the result -/

/-- The result buffer after the last pass holds the reference's result of the argument arrays. -/
theorem result : W10 m ρ c (Proc.devRef .tc main_v54) = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W10_arr m ρ c 2).trans ((Bias64.final (V9 m ρ) c).trans
    (congrArg₂ Cert.Stages.bias64 (at9_v52 m ρ c) (at9_v53 m ρ c)))

end Cert.KernelIdeal.Flow

end
-- ==== Proof.lean ====
/-
  A two-layer graph convolution on 50000 nodes and 800000 edges (plus one self-loop per node), computed by five
  blocked passes with gathers and scatter-adds between them, against the same network written with plain array
  operations.

  Both programs derive from the edge list the same source and destination index vectors and the same edge coefficients
  `deg^(-1/2)[src] · deg^(-1/2)[dst]`, and both apply, twice, "project, gather by source, scale by the coefficient,
  add up by destination, add the bias" with a rectification between the layers. The kernel runs the projections, the
  scalings and the last bias as passes over blocks of rows; at the extended reals each pass leaves in its output array
  one whole-array function of its input arrays (the projection `X·W` as the textbook contraction, the rounding of its
  operands being the identity there; `g(e, q) · n(e)`; `max(a + b₁, 0)·W₂`; `a + b₂`), and that function is the
  reference's stage of the same operands. The gathers, the scatter-adds and the index arithmetic are the same
  operations on both sides and are never opened. So every buffer the kernel still reads holds, at every boundary
  between a pass and the host operations, the reference's stage of the argument arrays, and the result buffer ends at
  the reference's result. No law that needs finite operands is used.

  The frames of the two kernel programs are the generated ones; the reference's frame is its run with the result
  dropped; the idealization rewrote nothing, so there is nothing to preserve.
-/
import proofs.«124881_j429496729879_1_alg».proof.Defs
import proofs.«124881_j429496729879_1_alg».proof.Proof.Gen.Kernel
import proofs.«124881_j429496729879_1_alg».proof.Proof.Gen.Kernel.Frame
import proofs.«124881_j429496729879_1_alg».proof.Proof.Gen.KernelIdeal
import proofs.«124881_j429496729879_1_alg».proof.Proof.Gen.KernelIdeal.Frame
import proofs.«124881_j429496729879_1_alg».proof.Proof.Gen.ReferenceIdeal
import proofs.«124881_j429496729879_1_alg».proof.Proof.Gen.ReferenceIdeal.Run
import proofs.«124881_j429496729879_1_alg».proof.Proof.Gen.ReferenceIdeal.Read
import proofs.«124881_j429496729879_1_alg».proof.Proof.Gen.Pre_finite_inputs
import proofs.«124881_j429496729879_1_alg».proof.Proof.FrameResult
import proofs.«124881_j429496729879_1_alg».proof.Proof.Flow
import Idealize.ShloMosaic.Adequacy
import Idealize.ShloMosaic.Init

noncomputable section

namespace Cert.Proof

open Idealize.ShloMosaic Idealize.SL.Sem

/-- The kernel as printed runs to the end and leaves its arguments as launched. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs to the end and leaves its arguments as launched: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the reference's last stage of the argument arrays in
    their result buffers: the kernel by following its passes and host operations boundary by boundary, the reference by
    its run read stage by stage. -/
theorem algebraic : Cert.algebraic_KernelIdeal_ReferenceIdeal := by
  intro m ρ m' ρ' _ hagree
  refine ⟨fun c => Cert.ReferenceIdeal.Read.val_main_v61 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Flow.result m ρ c), (h c).2⟩)
      (Cert.KernelIdeal.GenP.frame_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v61_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
